-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x50000 : Shape := ⟨2, ![16, 50000]⟩
abbrev S1600000 : Shape := ⟨1, ![1600000]⟩
abbrev S50000 : Shape := ⟨1, ![50000]⟩
abbrev S_ : Shape := ⟨0, ![]⟩

class Facts : Prop where
  bcast_S_S16x50000 : S_.BroadcastsInDim S16x50000 (![] : Fin 0 → Fin S16x50000.rank)
  reducesTo_S16x50000_S_d0_1 : S16x50000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S50000 .f32) (main_arg5 : FVec F S50000 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S50000 .f32 := Host.absf main_arg4
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  let main_v24 : FVec F S50000 .f32 := Host.absf main_arg5
  let main_cst_8 : FVec F S_ .f32 := constant S_ .f32 0x7F800000#32
  let main_v25 : FVec F S50000 .f32 := broadcastInDim S50000 ![] bcast_S_S50000 main_cst_8
  let main_v26 : IVec S50000 1 := cmpf .olt main_v24 main_v25
  let main_c_9 : IVec S_ 1 := constantI S_ 1 1#1
  let main_v27 : IVec S_ 1 := (fun x v => Host.reduce IntOp.andi x v reducesTo_S50000_S_d0 h_S_) main_v26 main_c_9
  let main_v28 : IVec S_ 1 := andi main_v23 main_v27
  main_v28

def fn {F : FTy → Type} [FloatOps F] (main_arg0 : FVec F S16x50000 .f32) (main_arg1 : FVec F S16x50000 .f32) (main_arg2 : FVec F S16x50000 .f32) (main_arg3 : FVec F S1600000 .f32) (main_arg4 : FVec F S50000 .f32) (main_arg5 : FVec F S50000 .f32) (main_arg6 : IVec S1600000 32) (main_arg7 : IVec S1600000 32) : IVec S_ 1 :=
  let main_v0 : FVec F S16x50000 .f32 := Host.absf main_arg0
  let main_cst : FVec F S_ .f32 := constant S_ .f32 0x7F800000#32
  let main_v1 : FVec F S16x50000 .f32 := broadcastInDim S16x50000 ![] bcast_S_S16x50000 main_cst
  let main_v2 : IVec S16x50000 1 := cmpf .olt main_v0 main_v1
  let main_c : IVec S_ 1 := constantI S_ 1 1#1
  let main_v3 : IVec S_ 1 := (fun x v => Host.reduce IntOp.andi x v reducesTo_S16x50000_S_d0_1 h_S_) main_v2 main_c
  let main_v4 : FVec F S16x50000 .f32 := Host.absf main_arg1
  let main_cst_0 : FVec F S_ .f32 := constant S_ .f32 0x7F800000#32
  let main_v5 : FVec F S16x50000 .f32 := broadcastInDim S16x50000 ![] bcast_S_S16x50000 main_cst_0
  let main_v6 : IVec S16x50000 1 := cmpf .olt main_v4 main_v5
  let main_c_1 : IVec S_ 1 := constantI S_ 1 1#1
  let main_v7 : IVec S_ 1 := (fun x v => Host.reduce IntOp.andi x v reducesTo_S16x50000_S_d0_1 h_S_) main_v6 main_c_1
  let main_v8 : IVec S_ 1 := andi main_v3 main_v7
  let main_v9 : FVec F S16x50000 .f32 := Host.absf main_arg2
  let main_cst_2 : FVec F S_ .f32 := constant S_ .f32 0x7F800000#32
  let main_v10 : FVec F S16x50000 .f32 := broadcastInDim S16x50000 ![] bcast_S_S16x50000 main_cst_2
  let main_v11 : IVec S16x50000 1 := cmpf .olt main_v9 main_v10
  let main_c_3 : IVec S_ 1 := constantI S_ 1 1#1
  let main_v12 : IVec S_ 1 := (fun x v => Host.reduce IntOp.andi x v reducesTo_S16x50000_S_d0_1 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg5 main_v13 main_v16
-- ==== Kernel.lean ====
abbrev S16x50000 : Shape := ⟨2, ![16, 50000]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S16x1600000 : Shape := ⟨2, ![16, 1600000]⟩
abbrev S1x1600000 : Shape := ⟨2, ![1, 1600000]⟩
abbrev S16x80000 : Shape := ⟨2, ![16, 80000]⟩
abbrev S1x80000 : Shape := ⟨2, ![1, 80000]⟩
abbrev S16x50048 : Shape := ⟨2, ![16, 50048]⟩
abbrev S50048 : Shape := ⟨1, ![50048]⟩
abbrev S1x50048 : Shape := ⟨2, ![1, 50048]⟩

abbrev nBuf : Space → Nat
  | .hbm => 60
  | .vmem => 15
  | .smem => 0
  | _ => 0

abbrev bufTy : (tb : Table) → Fin (tcTables nBuf tb) → BufTy
  | .hbm, ⟨0, _⟩ => ⟨S16x50000, .f32⟩
  | .hbm, ⟨1, _⟩ => ⟨S16x50000, .f32⟩
  | .hbm, ⟨2, _⟩ => ⟨S16x50000, .f32⟩
  | .hbm, ⟨3, _⟩ => ⟨S1600000, .f32⟩
  | .hbm, ⟨4, _⟩ => ⟨S50000, .f32⟩
  | .hbm, ⟨5, _⟩ => ⟨S50000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S16x1600000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S16x1600000, .f32⟩
  | .hbm, ⟨26, _⟩ => ⟨S1x1600000, .f32⟩
  | .hbm, ⟨27, _⟩ => ⟨S16x1600000, .f32⟩
  | .hbm, ⟨28, _⟩ => ⟨S_, .f32⟩
  | .hbm, ⟨29, _⟩ => ⟨S16x50000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S16x50000, .f32⟩
  | .hbm, ⟨39, _⟩ => ⟨S_, .i32⟩
  | .hbm, ⟨40, _⟩ => ⟨S_, .f32⟩
  | .hbm, ⟨41, _⟩ => ⟨S16x50048, .f32⟩
  | .hbm, ⟨42, _⟩ => ⟨S_, .i32⟩
  | .hbm, ⟨43, _⟩ => ⟨S_, .f32⟩
  | .hbm, ⟨44, _⟩ => ⟨S16x50048, .f32⟩
  | .hbm, ⟨45, _⟩ => ⟨S_, .i32⟩
  | .hbm, ⟨46, _⟩ => ⟨S_, .f32⟩
  | .hbm, ⟨47, _⟩ => ⟨S16x50048, .f32⟩
  | .hbm, ⟨48, _⟩ => ⟨S_, .i32⟩
  | .hbm, ⟨49, _⟩ => ⟨S_, .f32⟩
  | .hbm, ⟨50, _⟩ => ⟨S50048, .f32⟩
  | .hbm, ⟨51, _⟩ => ⟨S1x50048, .f32⟩
  | .hbm, ⟨52, _⟩ => ⟨S_, .i32⟩
  | .hbm, ⟨53, _⟩ => ⟨S_, .f32⟩
  | .hbm, ⟨54, _⟩ => ⟨S50048, .f32⟩
  | .hbm, ⟨55, _⟩ => ⟨S1x50048, .f32⟩
  | .hbm, ⟨56, _⟩ => ⟨S16x50048, .f32⟩
  | .hbm, ⟨57, _⟩ => ⟨S16x50048, .f32⟩
  | .hbm, ⟨58, _⟩ => ⟨S16x50000, .f32⟩
  | .hbm, ⟨59, _⟩ => ⟨S16x50000, .f32⟩
  | .local _ .vmem, ⟨0, _⟩ => ⟨S16x80000, .f32⟩
  | .local _ .vmem, ⟨1, _⟩ => ⟨S16x80000, .f32⟩
  | .local _ .vmem, ⟨2, _⟩ => ⟨S16x80000, .f32⟩
  | .local _ .vmem, ⟨3, _⟩ => ⟨S16x80000, .f32⟩
  | .local _ .vmem, ⟨4, _⟩ => ⟨S1x80000, .f32⟩
  | .local _ .vmem, ⟨5, _⟩ => ⟨S1x80000, .f32⟩
  | .local _ .vmem, ⟨6, _⟩ => ⟨S16x80000, .f32⟩
  | .local _ .vmem, ⟨7, _⟩ => ⟨S16x80000, .f32⟩
  | .local _ .vmem, ⟨8, _⟩ => ⟨S16x50048, .f32⟩
  | .local _ .vmem, ⟨9, _⟩ => ⟨S16x50048, .f32⟩
  | .local _ .vmem, ⟨10, _⟩ => ⟨S16x50048, .f32⟩
  | .local _ .vmem, ⟨11, _⟩ => ⟨S1x50048, .f32⟩
  | .local _ .vmem, ⟨12, _⟩ => ⟨S1x50048, .f32⟩
  | .local _ .vmem, ⟨13, _⟩ => ⟨S16x50048, .f32⟩
  | .local _ .vmem, ⟨14, _⟩ => ⟨S16x50048, .f32⟩
  | _, _ => ⟨S16x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_call0_v0 : Ref sig .tc := ⟨.hbm, 40, rfl⟩
abbrev main_v24 : Ref sig .tc := ⟨.hbm, 41, rfl⟩
abbrev main_c_6 : Ref sig .tc := ⟨.hbm, 42, rfl⟩
abbrev main_call1_v0 : Ref sig .tc := ⟨.hbm, 43, rfl⟩
abbrev main_v25 : Ref sig .tc := ⟨.hbm, 44, rfl⟩
abbrev main_c_7 : Ref sig .tc := ⟨.hbm, 45, rfl⟩
abbrev main_call2_v0 : Ref sig .tc := ⟨.hbm, 46, rfl⟩
abbrev main_v26 : Ref sig .tc := ⟨.hbm, 47, rfl⟩
abbrev main_c_8 : Ref sig .tc := ⟨.hbm, 48, rfl⟩
abbrev main_call3_v0 : Ref sig .tc := ⟨.hbm, 49, rfl⟩
abbrev main_v27 : Ref sig .tc := ⟨.hbm, 50, rfl⟩
abbrev main_v28 : Ref sig .tc := ⟨.hbm, 51, rfl⟩
abbrev main_c_9 : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x50048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x50048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x50048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x50048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x50048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x50048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1x1600000 : S1600000.ShapeCasts S1x1600000
  inb_S16x80000_S16x80000_0_0 : ∀ a, (![0, 0] : Fin 2 → Nat) a + S16x80000.size a ≤ S16x80000.size a
  h_S16x80000 : 0 < S16x80000.numel
  shapeCasts_S16x80000_S16x80000 : S16x80000.ShapeCasts S16x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  broadcasts_S1x80000_S16x80000 : S1x80000.Broadcasts S16x80000
  bcast_S_S16x50000 : S_.BroadcastsInDim S16x50000 (![] : Fin 0 → Fin S16x50000.rank)
  pads_S16x50000_S16x50048_000_0480 : S16x50000.Pads (![0, 0] : Fin 2 → Nat) ![0, 48] ![0, 0] S16x50048
  h_S_ : 0 < S_.numel
  pads_S50000_S50048_0480 : S50000.Pads (![0] : Fin 1 → Nat) ![48] ![0] S50048
  shapeCasts_S50048_S1x50048 : S50048.ShapeCasts S1x50048
  inb_S16x50048_S16x50048_0_0 : ∀ a, (![0, 0] : Fin 2 → Nat) a + S16x50048.size a ≤ S16x50048.size a
  h_S16x50048 : 0 < S16x50048.numel
  shapeCasts_S16x50048_S16x50048 : S16x50048.ShapeCasts S16x50048
  inb_S1x50048_S1x50048_0_0 : ∀ a, (![0, 0] : Fin 2 → Nat) a + S1x50048.size a ≤ S1x50048.size a
  h_S1x50048 : 0 < S1x50048.numel
  shapeCasts_S1x50048_S1x50048 : S1x50048.ShapeCasts S1x50048
  broadcasts_S1x50048_S16x50048 : S1x50048.Broadcasts S16x50048
  slices_S16x50048_S16x50000_0_0 : S16x50048.Slices ![0, 0] S16x50000
  gather_S16x50000_S1600000x1_S16x1600000_0_1_n_n_1_1_161_wf : GatherDims.WF S16x50000 S1600000x1 S16x1600000 [0] [1] [] [1] [] 1 ![16, 1]
  scatter_S16x50000_S1600000x1_S16x1600000_0_1_1_1_wf : ScatterDims.WF S16x50000 S1600000x1 S16x1600000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x80000.size a ≤ S16x1600000.size a
  hwx0_0 : ∀ i : grid0.Coords, EltTy.bits .f32 = 32 ∨ (Rect.block (s := S16x1600000) S16x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x80000.size a ≤ S16x1600000.size a
  hwx0_1 : ∀ i : grid0.Coords, EltTy.bits .f32 = 32 ∨ (Rect.block (s := S16x1600000) S16x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x1600000.size a
  hwx0_2 : ∀ i : grid0.Coords, EltTy.bits .f32 = 32 ∨ (Rect.block (s := S1x1600000) S1x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x80000.size a ≤ S16x1600000.size a
  hwx0_3 : ∀ i : grid0.Coords, EltTy.bits .f32 = 32 ∨ (Rect.block (s := S16x1600000) S16x80000.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x50048.size a ≤ S16x50048.size a
  hwx1_0 : ∀ i : grid1.Coords, EltTy.bits .f32 = 32 ∨ (Rect.block (s := S16x50048) S16x50048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x50048.size a ≤ S16x50048.size a
  hwx1_1 : ∀ i : grid1.Coords, EltTy.bits .f32 = 32 ∨ (Rect.block (s := S16x50048) S16x50048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x50048.size a ≤ S16x50048.size a
  hwx1_2 : ∀ i : grid1.Coords, EltTy.bits .f32 = 32 ∨ (Rect.block (s := S16x50048) S16x50048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50048.size a ≤ S1x50048.size a
  hwx1_3 : ∀ i : grid1.Coords, EltTy.bits .f32 = 32 ∨ (Rect.block (s := S1x50048) S1x50048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x50048.size a ≤ S1x50048.size a
  hwx1_4 : ∀ i : grid1.Coords, EltTy.bits .f32 = 32 ∨ (Rect.block (s := S1x50048) S1x50048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x50048.size a ≤ S16x50048.size a
  hwx1_5 : ∀ i : grid1.Coords, EltTy.bits .f32 = 32 ∨ (Rect.block (s := S16x50048) S16x50048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x50048.size a ≤ S16x50048.size a
  hwx1_6 : ∀ i : grid1.Coords, EltTy.bits .f32 = 32 ∨ (Rect.block (s := S16x50048) S16x50048.size (cc1_transform_6 i) (hinb1_6 i)).WholeWords (EltTy.packing .f32)

variable [Facts₀]

def gather_S16x50000_S1600000x1_S16x1600000_0_1_n_n_1_1_161 : GatherDims S16x50000 S1600000x1 S16x1600000 where
  offsetDims := [0]
  collapsedSliceDims := [1]
  operandBatchingDims := []
  startIndicesBatchingDims := []
  startIndexMap := [1]
  indexVectorDim := 1
  sliceSizes := ![16, 1]
  wf := gather_S16x50000_S1600000x1_S16x1600000_0_1_n_n_1_1_161_wf
def scatter_S16x50000_S1600000x1_S16x1600000_0_1_1_1 : ScatterDims S16x50000 S1600000x1 S16x1600000 where
  updateWindowDims := [0]
  insertedWindowDims := [1]
  scatterDimsToOperandDims := [1]
  indexVectorDim := 1
  wf := scatter_S16x50000_S1600000x1_S16x1600000_0_1_1_1_wf

abbrev win0_0 : Pipeline.Window sig grid0 :=
  Pipeline.Window.ofSpec (Memref.whole main_v6) S16x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S16x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S16x50048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v25) S16x50048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S16x50048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x50048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x50048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31_0) S16x50048.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_1) S16x50048.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x50000 : Shape := ⟨2, ![16, 50000]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S16x1600000 : Shape := ⟨2, ![16, 1600000]⟩
abbrev S1x1600000 : Shape := ⟨2, ![1, 1600000]⟩
abbrev S1x50000 : Shape := ⟨2, ![1, 50000]⟩

abbrev nBuf : Space → Nat
  | .hbm => 79
  | .vmem => 0
  | .smem => 0
  | _ => 0

abbrev bufTy : (tb : Table) → Fin (tcTables nBuf tb) → BufTy
  | .hbm, ⟨0, _⟩ => ⟨S16x50000, .f32⟩
  | .hbm, ⟨1, _⟩ => ⟨S16x50000, .f32⟩
  | .hbm, ⟨2, _⟩ => ⟨S16x50000, .f32⟩
  | .hbm, ⟨3, _⟩ => ⟨S1600000, .f32⟩
  | .hbm, ⟨4, _⟩ => ⟨S50000, .f32⟩
  | .hbm, ⟨5, _⟩ => ⟨S50000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S16x1600000, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S16x1600000, .f32⟩
  | .hbm, ⟨26, _⟩ => ⟨S16x1600000, .i1⟩
  | .hbm, ⟨27, _⟩ => ⟨S_, .f32⟩
  | .hbm, ⟨28, _⟩ => ⟨S_, .f32⟩
  | .hbm, ⟨29, _⟩ => ⟨S16x1600000, .f32⟩
  | .hbm, ⟨30, _⟩ => ⟨S16x1600000, .f32⟩
  | .hbm, ⟨31, _⟩ => ⟨S16x1600000, .f32⟩
  | .hbm, ⟨32, _⟩ => ⟨S1x1600000, .f32⟩
  | .hbm, ⟨33, _⟩ => ⟨S16x1600000, .f32⟩
  | .hbm, ⟨34, _⟩ => ⟨S16x1600000, .f32⟩
  | .hbm, ⟨35, _⟩ => ⟨S16x1600000, .f32⟩
  | .hbm, ⟨36, _⟩ => ⟨S16x1600000, .f32⟩
  | .hbm, ⟨37, _⟩ => ⟨S_, .f32⟩
  | .hbm, ⟨38, _⟩ => ⟨S16x50000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S16x50000, .f32⟩
  | .hbm, ⟨48, _⟩ => ⟨S16x50000, .f32⟩
  | .hbm, ⟨49, _⟩ => ⟨S16x50000, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16x50000, .f32⟩
  | .hbm, ⟨54, _⟩ => ⟨S16x50000, .f32⟩
  | .hbm, ⟨55, _⟩ => ⟨S_, .f32⟩
  | .hbm, ⟨56, _⟩ => ⟨S16x50000, .f32⟩
  | .hbm, ⟨57, _⟩ => ⟨S16x50000, .f32⟩
  | .hbm, ⟨58, _⟩ => ⟨S1x50000, .f32⟩
  | .hbm, ⟨59, _⟩ => ⟨S16x50000, .f32⟩
  | .hbm, ⟨60, _⟩ => ⟨S16x50000, .i1⟩
  | .hbm, ⟨61, _⟩ => ⟨S16x50000, .i1⟩
  | .hbm, ⟨62, _⟩ => ⟨S16x50000, .f32⟩
  | .hbm, ⟨63, _⟩ => ⟨S16x50000, .f32⟩
  | .hbm, ⟨64, _⟩ => ⟨S_, .f32⟩
  | .hbm, ⟨65, _⟩ => ⟨S16x50000, .f32⟩
  | .hbm, ⟨66, _⟩ => ⟨S16x50000, .i1⟩
  | .hbm, ⟨67, _⟩ => ⟨S16x50000, .i1⟩
  | .hbm, ⟨68, _⟩ => ⟨S1x50000, .f32⟩
  | .hbm, ⟨69, _⟩ => ⟨S16x50000, .f32⟩
  | .hbm, ⟨70, _⟩ => ⟨S16x50000, .f32⟩
  | .hbm, ⟨71, _⟩ => ⟨S_, .f32⟩
  | .hbm, ⟨72, _⟩ => ⟨S16x50000, .f32⟩
  | .hbm, ⟨73, _⟩ => ⟨S16x50000, .f32⟩
  | .hbm, ⟨74, _⟩ => ⟨S1x50000, .f32⟩
  | .hbm, ⟨75, _⟩ => ⟨S16x50000, .f32⟩
  | .hbm, ⟨76, _⟩ => ⟨S16x50000, .f32⟩
  | .hbm, ⟨77, _⟩ => ⟨S16x50000, .f32⟩
  | .hbm, ⟨78, _⟩ => ⟨S16x50000, .f32⟩
  | _, _ => ⟨S16x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_cst_8 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call2_cst : Ref sig .tc := ⟨.hbm, 71, rfl⟩
abbrev main_call2_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S16x1600000 : S_.BroadcastsInDim S16x1600000 (![] : Fin 0 → Fin S16x1600000.rank)
  bcast_S1600000_S1x1600000_1 : S1600000.BroadcastsInDim S1x1600000 (![1] : Fin 1 → Fin S1x1600000.rank)
  bcast_S1x1600000_S16x1600000_0_1 : S1x1600000.BroadcastsInDim S16x1600000 (![0, 1] : Fin 2 → Fin S16x1600000.rank)
  bcast_S_S16x50000 : S_.BroadcastsInDim S16x50000 (![] : Fin 0 → Fin S16x50000.rank)
  bcast_S50000_S1x50000_1 : S50000.BroadcastsInDim S1x50000 (![1] : Fin 1 → Fin S1x50000.rank)
  bcast_S1x50000_S16x50000_0_1 : S1x50000.BroadcastsInDim S16x50000 (![0, 1] : Fin 2 → Fin S16x50000.rank)
  gather_S16x50000_S1600000x1_S16x1600000_0_1_n_n_1_1_161_wf : GatherDims.WF S16x50000 S1600000x1 S16x1600000 [0] [1] [] [1] [] 1 ![16, 1]
  scatter_S16x50000_S1600000x1_S16x1600000_0_1_1_1_wf : ScatterDims.WF S16x50000 S1600000x1 S16x1600000 [0] [1] [1] 1

variable [Facts₀]

def gather_S16x50000_S1600000x1_S16x1600000_0_1_n_n_1_1_161 : GatherDims S16x50000 S1600000x1 S16x1600000 where
  offsetDims := [0]
  collapsedSliceDims := [1]
  operandBatchingDims := []
  startIndicesBatchingDims := []
  startIndexMap := [1]
  indexVectorDim := 1
  sliceSizes := ![16, 1]
  wf := gather_S16x50000_S1600000x1_S16x1600000_0_1_n_n_1_1_161_wf
def scatter_S16x50000_S1600000x1_S16x1600000_0_1_1_1 : ScatterDims S16x50000 S1600000x1 S16x1600000 where
  updateWindowDims := [0]
  insertedWindowDims := [1]
  scatterDimsToOperandDims := [1]
  indexVectorDim := 1
  wf := scatter_S16x50000_S1600000x1_S16x1600000_0_1_1_1_wf

class Facts : Prop extends Facts₀ where

variable [Facts]
-- ==== Proof.Spec.lean ====
/-
  The two result arrays as functions of the argument arrays, entry by entry.

  An edge `e` joins a source node `src e` to a target node `dst e`.  With `oj = o_pre[b, src e]` and
  `en = E[b, dst e]` the edge contributes `oj · w e · (if oj ≥ en then 1 else −1)` to row `b`; the contributions are
  summed per target node into `gj`.  Then, per entry (b, n),
      s      = min 10 (max (−10) ((E + c) + gj))
      new_o  = max (s − thr n) 0
      new_e  = if s > thr n then new_o else if ¬(s > thr n) ∧ |s − E| ≤ ε then E − dec n else s.
  Nothing here needs the entries to be finite: both programs apply these operations in this order, so the
  statements hold for any float values.
-/
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- One edge's contribution from the source's output `oj`, the target's state `en` and the weight `w`. -/
def edge1 (oj en w : F .f32) : F .f32 :=
  FloatOps.mulf (FloatOps.mulf oj w)
    (Scalar.select (FloatOps.cmpf .oge oj en) (Scalar.ofBits .f32 0x3F800000#32) (Scalar.ofBits .f32 0xBF800000#32))

/-- The summed input clamped to [−10, 10]. -/
def clip1 (e c gj : F .f32) : F .f32 :=
  FloatOps.minimumf (Scalar.ofBits .f32 0x41200000#32)
    (FloatOps.maximumf (Scalar.ofBits .f32 0xC1200000#32) (FloatOps.addf (FloatOps.addf e c) gj))

/-- The new output: the part of the clamped input above the threshold. -/
def out1 (s thr : F .f32) : F .f32 :=
  FloatOps.maximumf (FloatOps.subf s thr) (Scalar.ofBits .f32 0x00000000#32)

/-- The new state. -/
def state1 (e s thr dec : F .f32) : F .f32 :=
  Scalar.select (FloatOps.cmpf .ogt s thr) (out1 s thr)
    (Scalar.select
      (IntOp.andi (~~~ (FloatOps.cmpf .ogt s thr))
        (FloatOps.cmpf .ole (FloatOps.absf (FloatOps.subf s e)) (Scalar.ofBits .f32 0x358637BD#32)))
      (FloatOps.subf e dec) s)

/-- Every edge's contribution, row by row: entry (b, e) from the gathered arrays at (b, e) and the weight of edge e. -/
def contrib (oj en : (⟨2, ![16, 1600000]⟩ : Shape).Idx → F .f32) (w : (⟨1, ![1600000]⟩ : Shape).Idx → F .f32) :
    (⟨2, ![16, 1600000]⟩ : Shape).Idx → F .f32 :=
  fun i => edge1 (oj i) (en i) (w (ix1 (i 1)))

/-- The new outputs, entry (b, n) from the arrays at (b, n) and the threshold of node n. -/
def newO (e c gj : (⟨2, ![16, 50000]⟩ : Shape).Idx → F .f32) (thr : (⟨1, ![50000]⟩ : Shape).Idx → F .f32) :
    (⟨2, ![16, 50000]⟩ : Shape).Idx → F .f32 :=
  fun i => out1 (clip1 (e i) (c i) (gj i)) (thr (ix1 (i 1)))

/-- The new states, entry (b, n) from the arrays at (b, n) and the threshold and decay of node n. -/
def newE (e c gj : (⟨2, ![16, 50000]⟩ : Shape).Idx → F .f32) (thr dec : (⟨1, ![50000]⟩ : Shape).Idx → F .f32) :
    (⟨2, ![16, 50000]⟩ : Shape).Idx → F .f32 :=
  fun i => state1 (e i) (clip1 (e i) (c i) (gj i)) (thr (ix1 (i 1))) (dec (ix1 (i 1)))

end Cert.Spec

end
-- ==== Proof.EdgeRegion.lean ====
/-
  The edge kernel's region.  Its grid has 20 points; point t works on columns [80000 t, 80000 (t + 1)) of the two
  gathered 16 × 1600000 arrays and of the 1 × 1600000 weight row, and writes the same columns of the result.  The body is
  pointwise, so block t of the result is block t of one whole-array function (`edges`), the blocks tile the columns, and
  the result array after the last point is that function of the arrays the region was entered with.
-/
import proofs.«111159_j59751585022659_2_alg».proof.Proof.Gen.KernelIdeal.Frame
import proofs.«111159_j59751585022659_2_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.EdgeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]

/-! ## The body at an entry -/

/-- A one-row block laid down the 16 rows, read at (b, e), is the row at (0, e). -/
theorem row_bcast (x : Vec F S1x80000 .f32) (h : S1x80000.Broadcasts S16x80000) (j : S16x80000.Idx) :
    broadcastTo S16x80000 x h j = x (ix2 (0 : Fin 1) (j 1)) :=
  broadcastTo_apply x h j (ix2 (0 : Fin 1) (j 1)) (fun a => by
    match a with
    | ⟨0, _⟩ => rfl
    | ⟨1, _⟩ => show (j 1).val = if (80000 : Nat) = 1 then 0 else (j 1).val; rw [if_neg (by decide)])

/-- The stored value at entry (b, e) of a block: the edge term of the two gathered blocks at (b, e) and the
    weight block at (0, e). -/
theorem pay_apply (x0 x1 : Vec F S16x80000 .f32) (x2 : Vec F S1x80000 .f32) (j : S16x80000.Idx) :
    k0_pay1 x0 x1 x2 j = Cert.Spec.edge1 (x0 j) (x1 j) (x2 (ix2 (0 : Fin 1) (j 1))) := by
  unfold k0_pay1
  simp only [shapeCast_self]
  show FloatOps.mulf (FloatOps.mulf (x0 j) (broadcastTo S16x80000 x2 _ j)) _ = _
  rw [row_bcast]
  rfl

/-! ## From blocks to the array -/

theorem hz : (![0, 0] : Fin 2 → Nat) = fun _ => 0 := funext fun a => by fin_cases a <;> rfl

/-- The region's result as one function of the three arrays it reads: entry (b, e) is the edge term of the gathered
    arrays at (b, e) and the weight row at (0, e). -/
def edges (oj en : S16x1600000.Idx → F .f32) (w : S1x1600000.Idx → F .f32) : S16x1600000.Idx → F .f32 :=
  fun i => Cert.Spec.edge1 (oj i) (en i) (w (ix2 (0 : Fin 1) (i 1)))

/-- Block t of every window is columns [80000 t, 80000 (t+1)) of all its rows. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt F) ((c : Thread nD τ).loc b))

/-- What point t writes back is block t of `edges` of the arrays as the region finds them. -/
theorem flushed_eq (c : Dev nD) (t : Fin cfg0.N) :
    (dat0 V c).flushed 3 t = ((cfg0.win 3).blk t).view.read (Elt F) (edges (V c main_v6) (V c main_v13) (V c main_v14)) := by
  show (cfg0.win 3).cut (grid0.coords t) ((dat0 V c).after 3 t) = _
  rw [after0_3]
  unfold out0_3
  rw [View.canon_unit_zero hz]
  simp only [View.ld_unit_zero (S := S16x80000) hz, View.ld_unit_zero (S := S1x80000) hz]
  obtain ⟨a0, a1, b0, b1, c0, c1, d0, d1⟩ := idx_facts t
  funext j
  refine (pay_apply _ _ _ j).trans ?_
  show Cert.Spec.edge1 (V c main_v6 (((cfg0.win 0).blk t).view.emb j)) (V c main_v13 (((cfg0.win 1).blk t).view.emb j))
      (V c main_v14 (((cfg0.win 2).blk t).view.emb (ix2 (0 : Fin 1) (j 1))))
    = Cert.Spec.edge1 (V c main_v6 (((cfg0.win 3).blk t).view.emb j)) (V c main_v13 (((cfg0.win 3).blk t).view.emb j))
      (V c main_v14 (ix2 (0 : Fin 1) ((((cfg0.win 3).blk t).view.emb j) 1)))
  have h0 : ((cfg0.win 0).blk t).view.emb j = ((cfg0.win 3).blk t).view.emb j := by
    funext a; apply Fin.ext
    match a with
    | ⟨0, _⟩ => show win0_0.index t (0 : Fin 2) * 16 + 1 * (j 0).val = win0_3.index t (0 : Fin 2) * 16 + 1 * (j 0).val; omega
    | ⟨1, _⟩ => show win0_0.index t (1 : Fin 2) * 80000 + 1 * (j 1).val = win0_3.index t (1 : Fin 2) * 80000 + 1 * (j 1).val; omega
  have h1 : ((cfg0.win 1).blk t).view.emb j = ((cfg0.win 3).blk t).view.emb j := by
    funext a; apply Fin.ext
    match a with
    | ⟨0, _⟩ => show win0_1.index t (0 : Fin 2) * 16 + 1 * (j 0).val = win0_3.index t (0 : Fin 2) * 16 + 1 * (j 0).val; omega
    | ⟨1, _⟩ => show win0_1.index t (1 : Fin 2) * 80000 + 1 * (j 1).val = win0_3.index t (1 : Fin 2) * 80000 + 1 * (j 1).val; omega
  have h2 : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 80000 + 1 * (j 1).val = win0_3.index t (1 : Fin 2) * 80000 + 1 * (j 1).val; omega
  rw [h0, h1, h2]
  rfl

/-- An index of the array is in point t's block iff each coordinate is in the block's range on its axis. -/
theorem mem_blk (t : Fin cfg0.N) (i : S16x1600000.Idx) :
    i ∈ ((cfg0.win 3).blk t).view.set ↔ ∀ a : Fin 2, win0_3.index t a * S16x80000.size a ≤ (i a).val ∧ (i a).val < win0_3.index t a * S16x80000.size a + S16x80000.size a := by
  show i ∈ ((View.whole main_v15).slice (win0_3.rect t)).set ↔ _
  rw [View.set_slice_whole, Rect.mem_set_unit]
  exact Iff.rfl

/-- Column e lies in the block of point e / 80000. -/
theorem cover (i : S16x1600000.Idx) :
    ∃ t : Fin cfg0.N, (cfg0.win 3).flush t = true ∧ i ∈ ((cfg0.win 3).blk t).view.set := by
  have hi0 : (i 0).val < 16 := (i 0).isLt
  have hi1 : (i 1).val < 1600000 := (i 1).isLt
  have hN : cfg0.N = 20 := N_0
  let t : Fin cfg0.N := ⟨(i 1).val / 80000, by rw [hN]; omega⟩
  obtain ⟨a0, a1, b0, b1, c0, c1, d0, d1⟩ := idx_facts t
  have d1' : win0_3.index t (1 : Fin 2) = (i 1).val / 80000 := d1
  refine ⟨t, flush0_3 t, ?_⟩
  rw [mem_blk]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 80000 ≤ (i 1).val ∧ (i 1).val < win0_3.index t (1 : Fin 2) * 80000 + 80000; omega

/-- The region's result array after its last point: `edges` of the three arrays it reads, as the region found them. -/
theorem final (c : Dev nD) :
    (dat0 V c).arrAt 3 cfg0.N = edges (V c main_v6) (V c main_v13) (V c main_v14) :=
  (dat0 V c).arrAt_eq_of_cover 3 (edges (V c main_v6) (V c main_v13) (V c main_v14)) (fun t _ => flushed_eq V c t) cover

end Cert.KernelIdeal.EdgeRegion

end
-- ==== Proof.NodeRegion.lean ====
/-
  The node kernel's region.  Its grid has one point, whose blocks are the whole padded arrays (16 × 50048 for the three
  node arrays and both results, 1 × 50048 for the threshold and decay rows).  The body is pointwise: entry (b, n) of
  result 0 is the new output, and of result 1 the new state, computed from the three node arrays at (b, n) and the two
  rows at (0, n).  The one block covers each result array, so after the region each result array is one whole-array
  function (`nodeO`, `nodeE`) of the arrays the region was entered with.
-/
import proofs.«111159_j59751585022659_2_alg».proof.Proof.Gen.KernelIdeal.Frame
import proofs.«111159_j59751585022659_2_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.NodeRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]

/-! ## The body at an entry -/

/-- A one-row block laid down the 16 rows is, at (b, n), the row at (0, n). -/
theorem row_bcast {α : Type} (x : S1x50048.Idx → α) (h : S1x50048.Broadcasts S16x50048) :
    broadcastTo S16x50048 x h = fun j => x (ix2 (0 : Fin 1) (j 1)) :=
  funext fun j => broadcastTo_apply x h j (ix2 (0 : Fin 1) (j 1)) (fun a => by
    match a with
    | ⟨0, _⟩ => rfl
    | ⟨1, _⟩ => show (j 1).val = if (50048 : Nat) = 1 then 0 else (j 1).val; rw [if_neg (by decide)])

/-- The first stored value at entry (b, n): the new output from the three blocks at (b, n) and the threshold row at (0, n). -/
theorem payO_apply (x0 x1 x2 : Vec F S16x50048 .f32) (x3 : Vec F S1x50048 .f32) (j : S16x50048.Idx) :
    k1_pay4 x0 x1 x2 x3 j = Cert.Spec.out1 (Cert.Spec.clip1 (x0 j) (x1 j) (x2 j)) (x3 (ix2 (0 : Fin 1) (j 1))) := by
  unfold k1_pay4 k1_pay3 k1_pay2 k1_pay1
  simp only [shapeCast_self, row_bcast]
  simp only [subf, maximumf, minimumf, addf, broadcast, Cert.Spec.out1, Cert.Spec.clip1]

/-- The second stored value at entry (b, n): the new state; the kernel's complement of the comparison by exclusive-or
    with `true` is its negation. -/
theorem payE_apply (x0 x1 x2 : Vec F S16x50048 .f32) (x3 x4 : Vec F S1x50048 .f32) (j : S16x50048.Idx) :
    k1_pay5 x0 x1 x2 x3 x4 j = Cert.Spec.state1 (x0 j) (Cert.Spec.clip1 (x0 j) (x1 j) (x2 j)) (x3 (ix2 (0 : Fin 1) (j 1))) (x4 (ix2 (0 : Fin 1) (j 1))) := by
  unfold k1_pay5 k1_pay4 k1_pay3 k1_pay2 k1_pay1
  simp only [shapeCast_self, row_bcast]
  simp only [select, xori, constantI, andi, cmpf, subf, absf, maximumf, minimumf, addf, broadcast, xori_one_eq_not,
    Cert.Spec.state1, Cert.Spec.out1, Cert.Spec.clip1]

/-! ## From the one block to the arrays -/

theorem hz : (![0, 0] : Fin 2 → Nat) = fun _ => 0 := funext fun a => by fin_cases a <;> rfl

/-- Result 0 as one function of the arrays the region reads. -/
def nodeO (e c gj : S16x50048.Idx → F .f32) (thr : S1x50048.Idx → F .f32) : S16x50048.Idx → F .f32 :=
  fun i => Cert.Spec.out1 (Cert.Spec.clip1 (e i) (c i) (gj i)) (thr (ix2 (0 : Fin 1) (i 1)))

/-- Result 1 as one function of the arrays the region reads. -/
def nodeE (e c gj : S16x50048.Idx → F .f32) (thr dec : S1x50048.Idx → F .f32) : S16x50048.Idx → F .f32 :=
  fun i => Cert.Spec.state1 (e i) (Cert.Spec.clip1 (e i) (c i) (gj i)) (thr (ix2 (0 : Fin 1) (i 1))) (dec (ix2 (0 : Fin 1) (i 1)))

/-- Every window's one block starts at the origin. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

variable (V : (c : Dev nD) → (b : Ref sig .tc) → Buf (Elt F) ((c : Thread nD τ).loc b))

/-- What the one point writes back to result 0 is the whole of `nodeO` of the arrays as the region finds them. -/
theorem flushed5_eq (c : Dev nD) (t : Fin cfg1.N) :
    (dat1 V c).flushed 5 t = ((cfg1.win 5).blk t).view.read (Elt F) (nodeO (V c main_v24) (V c main_v25) (V c main_v26) (V c main_v28)) := by
  show (cfg1.win 5).cut (grid1.coords t) ((dat1 V c).after 5 t) = _
  rw [after1_5]
  unfold out1_5
  rw [View.canon_unit_zero hz]
  simp only [View.ld_unit_zero (S := S16x50048) hz, View.ld_unit_zero (S := S1x50048) hz]
  obtain ⟨a0, a1, b0, b1, c0, c1, d0, d1, e0, e1, f0, f1, g0, g1⟩ := idx_facts t
  funext j
  refine (payO_apply _ _ _ _ j).trans ?_
  show Cert.Spec.out1 (Cert.Spec.clip1 (V c main_v24 (((cfg1.win 0).blk t).view.emb j)) (V c main_v25 (((cfg1.win 1).blk t).view.emb j)) (V c main_v26 (((cfg1.win 2).blk t).view.emb j))) (V c main_v28 (((cfg1.win 3).blk t).view.emb (ix2 (0 : Fin 1) (j 1))))
    = Cert.Spec.out1 (Cert.Spec.clip1 (V c main_v24 (((cfg1.win 5).blk t).view.emb j)) (V c main_v25 (((cfg1.win 5).blk t).view.emb j)) (V c main_v26 (((cfg1.win 5).blk t).view.emb j))) (V c main_v28 (ix2 (0 : Fin 1) ((((cfg1.win 5).blk t).view.emb j) 1)))
  have h0 : ((cfg1.win 0).blk t).view.emb j = (((cfg1.win 5).blk t).view.emb j) := by
    funext a; apply Fin.ext
    match a with
    | ⟨0, _⟩ => show win1_0.index t (0 : Fin 2) * 16 + 1 * (j 0).val = win1_5.index t (0 : Fin 2) * 16 + 1 * (j 0).val; omega
    | ⟨1, _⟩ => show win1_0.index t (1 : Fin 2) * 50048 + 1 * (j 1).val = win1_5.index t (1 : Fin 2) * 50048 + 1 * (j 1).val; omega
  have h1 : ((cfg1.win 1).blk t).view.emb j = (((cfg1.win 5).blk t).view.emb j) := by
    funext a; apply Fin.ext
    match a with
    | ⟨0, _⟩ => show win1_1.index t (0 : Fin 2) * 16 + 1 * (j 0).val = win1_5.index t (0 : Fin 2) * 16 + 1 * (j 0).val; omega
    | ⟨1, _⟩ => show win1_1.index t (1 : Fin 2) * 50048 + 1 * (j 1).val = win1_5.index t (1 : Fin 2) * 50048 + 1 * (j 1).val; omega
  have h2 : ((cfg1.win 2).blk t).view.emb j = (((cfg1.win 5).blk t).view.emb j) := by
    funext a; apply Fin.ext
    match a with
    | ⟨0, _⟩ => show win1_2.index t (0 : Fin 2) * 16 + 1 * (j 0).val = win1_5.index t (0 : Fin 2) * 16 + 1 * (j 0).val; omega
    | ⟨1, _⟩ => show win1_2.index t (1 : Fin 2) * 50048 + 1 * (j 1).val = win1_5.index t (1 : Fin 2) * 50048 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 50048 + 1 * (j 1).val = win1_5.index t (1 : Fin 2) * 50048 + 1 * (j 1).val; omega
  rw [h0, h1, h2, h3]
  rfl

/-- An index of the array is in the point's block iff each coordinate is in the block's range on its axis. -/
theorem mem_blk5 (t : Fin cfg1.N) (i : S16x50048.Idx) :
    i ∈ ((cfg1.win 5).blk t).view.set ↔ ∀ a : Fin 2, win1_5.index t a * S16x50048.size a ≤ (i a).val ∧ (i a).val < win1_5.index t a * S16x50048.size a + S16x50048.size a := by
  show i ∈ ((View.whole main_v31_0).slice (win1_5.rect t)).set ↔ _
  rw [View.set_slice_whole, Rect.mem_set_unit]
  exact Iff.rfl

/-- The one block is the whole array. -/
theorem cover5 (i : S16x50048.Idx) :
    ∃ t : Fin cfg1.N, (cfg1.win 5).flush t = true ∧ i ∈ ((cfg1.win 5).blk t).view.set := by
  have hi0 : (i 0).val < 16 := (i 0).isLt
  have hi1 : (i 1).val < 50048 := (i 1).isLt
  obtain ⟨a0, a1, b0, b1, c0, c1, d0, d1, e0, e1, f0, f1, g0, g1⟩ := idx_facts t1_0
  refine ⟨t1_0, flush1_5 t1_0, ?_⟩
  rw [mem_blk5]
  intro a
  match a with
  | ⟨0, _⟩ => show win1_5.index t1_0 (0 : Fin 2) * 16 ≤ (i 0).val ∧ (i 0).val < win1_5.index t1_0 (0 : Fin 2) * 16 + 16; omega
  | ⟨1, _⟩ => show win1_5.index t1_0 (1 : Fin 2) * 50048 ≤ (i 1).val ∧ (i 1).val < win1_5.index t1_0 (1 : Fin 2) * 50048 + 50048; omega

/-- Result 0's padded array after the region: `nodeO` of the arrays it reads, as the region found them. -/
theorem final5 (c : Dev nD) :
    (dat1 V c).arrAt 5 cfg1.N = nodeO (V c main_v24) (V c main_v25) (V c main_v26) (V c main_v28) :=
  (dat1 V c).arrAt_eq_of_cover 5 (nodeO (V c main_v24) (V c main_v25) (V c main_v26) (V c main_v28)) (fun t _ => flushed5_eq V c t) cover5

/-- What the one point writes back to result 1 is the whole of `nodeE` of the arrays as the region finds them. -/
theorem flushed6_eq (c : Dev nD) (t : Fin cfg1.N) :
    (dat1 V c).flushed 6 t = ((cfg1.win 6).blk t).view.read (Elt F) (nodeE (V c main_v24) (V c main_v25) (V c main_v26) (V c main_v28) (V c main_v30)) := by
  show (cfg1.win 6).cut (grid1.coords t) ((dat1 V c).after 6 t) = _
  rw [after1_6]
  unfold out1_6
  rw [View.canon_unit_zero hz]
  simp only [View.ld_unit_zero (S := S16x50048) hz, View.ld_unit_zero (S := S1x50048) hz]
  obtain ⟨a0, a1, b0, b1, c0, c1, d0, d1, e0, e1, f0, f1, g0, g1⟩ := idx_facts t
  funext j
  refine (payE_apply _ _ _ _ _ j).trans ?_
  show Cert.Spec.state1 (V c main_v24 (((cfg1.win 0).blk t).view.emb j)) (Cert.Spec.clip1 (V c main_v24 (((cfg1.win 0).blk t).view.emb j)) (V c main_v25 (((cfg1.win 1).blk t).view.emb j)) (V c main_v26 (((cfg1.win 2).blk t).view.emb j))) (V c main_v28 (((cfg1.win 3).blk t).view.emb (ix2 (0 : Fin 1) (j 1)))) (V c main_v30 (((cfg1.win 4).blk t).view.emb (ix2 (0 : Fin 1) (j 1))))
    = Cert.Spec.state1 (V c main_v24 (((cfg1.win 6).blk t).view.emb j)) (Cert.Spec.clip1 (V c main_v24 (((cfg1.win 6).blk t).view.emb j)) (V c main_v25 (((cfg1.win 6).blk t).view.emb j)) (V c main_v26 (((cfg1.win 6).blk t).view.emb j))) (V c main_v28 (ix2 (0 : Fin 1) ((((cfg1.win 6).blk t).view.emb j) 1))) (V c main_v30 (ix2 (0 : Fin 1) ((((cfg1.win 6).blk t).view.emb j) 1)))
  have h0 : ((cfg1.win 0).blk t).view.emb j = (((cfg1.win 6).blk t).view.emb j) := by
    funext a; apply Fin.ext
    match a with
    | ⟨0, _⟩ => show win1_0.index t (0 : Fin 2) * 16 + 1 * (j 0).val = win1_6.index t (0 : Fin 2) * 16 + 1 * (j 0).val; omega
    | ⟨1, _⟩ => show win1_0.index t (1 : Fin 2) * 50048 + 1 * (j 1).val = win1_6.index t (1 : Fin 2) * 50048 + 1 * (j 1).val; omega
  have h1 : ((cfg1.win 1).blk t).view.emb j = (((cfg1.win 6).blk t).view.emb j) := by
    funext a; apply Fin.ext
    match a with
    | ⟨0, _⟩ => show win1_1.index t (0 : Fin 2) * 16 + 1 * (j 0).val = win1_6.index t (0 : Fin 2) * 16 + 1 * (j 0).val; omega
    | ⟨1, _⟩ => show win1_1.index t (1 : Fin 2) * 50048 + 1 * (j 1).val = win1_6.index t (1 : Fin 2) * 50048 + 1 * (j 1).val; omega
  have h2 : ((cfg1.win 2).blk t).view.emb j = (((cfg1.win 6).blk t).view.emb j) := by
    funext a; apply Fin.ext
    match a with
    | ⟨0, _⟩ => show win1_2.index t (0 : Fin 2) * 16 + 1 * (j 0).val = win1_6.index t (0 : Fin 2) * 16 + 1 * (j 0).val; omega
    | ⟨1, _⟩ => show win1_2.index t (1 : Fin 2) * 50048 + 1 * (j 1).val = win1_6.index t (1 : Fin 2) * 50048 + 1 * (j 1).val; omega
  have h3 : ((cfg1.win 3).blk t).view.emb (ix2 (0 : Fin 1) (j 1)) = ix2 (0 : Fin 1) ((((cfg1.win 6).blk t).view.emb j) 1) := by
    funext a; apply Fin.ext
    match a with
    | ⟨0, _⟩ => show win1_3.index t (0 : Fin 2) * 1 + 1 * 0 = 0; omega
    | ⟨1, _⟩ => show win1_3.index t (1 : Fin 2) * 50048 + 1 * (j 1).val = win1_6.index t (1 : Fin 2) * 50048 + 1 * (j 1).val; omega
  have h4 : ((cfg1.win 4).blk t).view.emb (ix2 (0 : Fin 1) (j 1)) = ix2 (0 : Fin 1) ((((cfg1.win 6).blk t).view.emb j) 1) := by
    funext a; apply Fin.ext
    match a with
    | ⟨0, _⟩ => show win1_4.index t (0 : Fin 2) * 1 + 1 * 0 = 0; omega
    | ⟨1, _⟩ => show win1_4.index t (1 : Fin 2) * 50048 + 1 * (j 1).val = win1_6.index t (1 : Fin 2) * 50048 + 1 * (j 1).val; omega
  rw [h0, h1, h2, h3, h4]
  rfl

/-- An index of the array is in the point's block iff each coordinate is in the block's range on its axis. -/
theorem mem_blk6 (t : Fin cfg1.N) (i : S16x50048.Idx) :
    i ∈ ((cfg1.win 6).blk t).view.set ↔ ∀ a : Fin 2, win1_6.index t a * S16x50048.size a ≤ (i a).val ∧ (i a).val < win1_6.index t a * S16x50048.size a + S16x50048.size a := by
  show i ∈ ((View.whole main_v31_1).slice (win1_6.rect t)).set ↔ _
  rw [View.set_slice_whole, Rect.mem_set_unit]
  exact Iff.rfl

/-- The one block is the whole array. -/
theorem cover6 (i : S16x50048.Idx) :
    ∃ t : Fin cfg1.N, (cfg1.win 6).flush t = true ∧ i ∈ ((cfg1.win 6).blk t).view.set := by
  have hi0 : (i 0).val < 16 := (i 0).isLt
  have hi1 : (i 1).val < 50048 := (i 1).isLt
  obtain ⟨a0, a1, b0, b1, c0, c1, d0, d1, e0, e1, f0, f1, g0, g1⟩ := idx_facts t1_0
  refine ⟨t1_0, flush1_6 t1_0, ?_⟩
  rw [mem_blk6]
  intro a
  match a with
  | ⟨0, _⟩ => show win1_6.index t1_0 (0 : Fin 2) * 16 ≤ (i 0).val ∧ (i 0).val < win1_6.index t1_0 (0 : Fin 2) * 16 + 16; omega
  | ⟨1, _⟩ => show win1_6.index t1_0 (1 : Fin 2) * 50048 ≤ (i 1).val ∧ (i 1).val < win1_6.index t1_0 (1 : Fin 2) * 50048 + 50048; omega

/-- Result 1's padded array after the region: `nodeE` of the arrays it reads, as the region found them. -/
theorem final6 (c : Dev nD) :
    (dat1 V c).arrAt 6 cfg1.N = nodeE (V c main_v24) (V c main_v25) (V c main_v26) (V c main_v28) (V c main_v30) :=
  (dat1 V c).arrAt_eq_of_cover 6 (nodeE (V c main_v24) (V c main_v25) (V c main_v26) (V c main_v28) (V c main_v30)) (fun t _ => flushed6_eq V c t) cover6

end Cert.KernelIdeal.NodeRegion

end
-- ==== Proof.HostFold.lean ====
/-
  The kernel program's host operations read as functions of arrays.  Before the edge kernel's region the program
  gathers columns of two argument arrays and lays the weights out as one row; between the two regions it sums the edge
  contributions per target node and pads every node array with 48 zero columns; after the node kernel's region it keeps
  the leading 50000 columns of each result.  Each lemma walks the fold of buffer contents back from one segment boundary
  to the arrays the operations were applied to.
-/
import proofs.«111159_j59751585022659_2_alg».proof.Proof.Gen.KernelIdeal.Frame
import proofs.«111159_j59751585022659_2_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.HostFold

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! ## The host operations as functions of arrays -/

/-- An index array brought into range (a negative index has the extent 50000 added) and given a unit trailing axis. -/
def wrapIdx (x : (⟨S1600000, .i32⟩ : BufTy).Contents (Elt F)) : (⟨S1600000x1, .i32⟩ : BufTy).Contents (Elt F) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 50000#32))) x)

/-- Columns of a 16 × 50000 array picked by an index array. -/
def gatherCols (x : (⟨S16x50000, .f32⟩ : BufTy).Contents (Elt F)) (i : (⟨S1600000, .i32⟩ : BufTy).Contents (Elt F)) :
    (⟨S16x1600000, .f32⟩ : BufTy).Contents (Elt F) :=
  Host.gather gather_S16x50000_S1600000x1_S16x1600000_0_1_n_n_1_1_161 x (wrapIdx (F := F) i)

/-- Edge contributions summed per target node into a zero array. -/
def scatterCols (i : (⟨S1600000, .i32⟩ : BufTy).Contents (Elt F)) (u : (⟨S16x1600000, .f32⟩ : BufTy).Contents (Elt F)) :
    (⟨S16x50000, .f32⟩ : BufTy).Contents (Elt F) :=
  Host.scatterAdd scatter_S16x50000_S1600000x1_S16x1600000_0_1_1_1
    (broadcastInDim S16x50000 ![] bcast_S_S16x50000 (constant S_ .f32 0x00000000#32)) (wrapIdx (F := F) i) u

/-- A 16 × 50000 array with 48 zero columns added on the right. -/
def padCols (x : (⟨S16x50000, .f32⟩ : BufTy).Contents (Elt F)) : (⟨S16x50048, .f32⟩ : BufTy).Contents (Elt F) :=
  pad S16x50048 ![0, 0] ![0, 48] ![0, 0] x (sitofp .f32 (constantI S_ 32 0#32) : (⟨S_, .f32⟩ : BufTy).Contents (Elt F))
    pads_S16x50000_S16x50048_000_0480 h_S_

/-- A 50000-vector with 48 zeros added at the end, as one row. -/
def padRow (x : (⟨S50000, .f32⟩ : BufTy).Contents (Elt F)) : (⟨S1x50048, .f32⟩ : BufTy).Contents (Elt F) :=
  shapeCast S1x50048
    (pad S50048 ![0] ![48] ![0] x (sitofp .f32 (constantI S_ 32 0#32) : (⟨S_, .f32⟩ : BufTy).Contents (Elt F))
      pads_S50000_S50048_0480 h_S_) shapeCasts_S50048_S1x50048

/-! ## The edge region's entry arrays -/

theorem V1_v6 (c : Dev nD) : V1 m ρ c main_v6 = gatherCols (m ((c : Thread nD τ).loc main_arg2)) (m ((c : Thread nD τ).loc main_arg6)) := by
  show StableHlo.after hostOps0 (W0 m ρ c) (Proc.devRef .tc main_v6) = _
  after_results <;> rfl

theorem V1_v13 (c : Dev nD) : V1 m ρ c main_v13 = gatherCols (m ((c : Thread nD τ).loc main_arg1)) (m ((c : Thread nD τ).loc main_arg7)) := by
  show StableHlo.after hostOps0 (W0 m ρ c) (Proc.devRef .tc main_v13) = _
  after_results <;> rfl

theorem V1_v14 (c : Dev nD) : V1 m ρ c main_v14 = shapeCast S1x1600000 (m ((c : Thread nD τ).loc main_arg3)) shapeCasts_S1600000_S1x1600000 := by
  show StableHlo.after hostOps0 (W0 m ρ c) (Proc.devRef .tc main_v14) = _
  after_results <;> rfl

/-! ## The arguments at the edge region's exit -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl

theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl

theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

/-! ## The node region's entry arrays -/

theorem V13_v24 (c : Dev nD) : V13 m ρ c main_v24 = padCols (m ((c : Thread nD τ).loc main_arg1)) := by
  show StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))))) (Proc.devRef .tc main_v24) = _
  after_results
  rw [W2_arg1]
  rfl

theorem V13_v25 (c : Dev nD) : V13 m ρ c main_v25 = padCols (m ((c : Thread nD τ).loc main_arg0)) := by
  show StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))))) (Proc.devRef .tc main_v25) = _
  after_results
  rw [W2_arg0]
  rfl

theorem V13_v26 (c : Dev nD) : V13 m ρ c main_v26
    = padCols (scatterCols (m ((c : Thread nD τ).loc main_arg7)) (W2 m ρ c (Proc.devRef .tc main_v15))) := by
  show StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))))) (Proc.devRef .tc main_v26) = _
  after_results
  rw [W2_arg7]
  rfl

theorem V13_v28 (c : Dev nD) : V13 m ρ c main_v28 = padRow (m ((c : Thread nD τ).loc main_arg4)) := by
  show StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))))) (Proc.devRef .tc main_v28) = _
  after_results
  rw [W2_arg4]
  rfl

theorem V13_v30 (c : Dev nD) : V13 m ρ c main_v30 = padRow (m ((c : Thread nD τ).loc main_arg5)) := by
  show StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (W2 m ρ c))))))))))) (Proc.devRef .tc main_v30) = _
  after_results
  rw [W2_arg5]
  rfl

/-! ## The results: the leading 50000 columns of the node region's two arrays -/

theorem W15_v32 (c : Dev nD) : W15 m ρ c (Proc.devRef .tc main_v32)
    = extractStridedSlice S16x50000 ![0, 0] (W14 m ρ c (Proc.devRef .tc main_v31_0)) slices_S16x50048_S16x50000_0_0 := by
  show StableHlo.after hostOps2 (W14 m ρ c) (Proc.devRef .tc main_v32) = _
  after_results <;> rfl

theorem W15_v33 (c : Dev nD) : W15 m ρ c (Proc.devRef .tc main_v33)
    = extractStridedSlice S16x50000 ![0, 0] (W14 m ρ c (Proc.devRef .tc main_v31_1)) slices_S16x50048_S16x50000_0_0 := by
  show StableHlo.after hostOps2 (W14 m ρ c) (Proc.devRef .tc main_v33) = _
  after_results <;> rfl

end Cert.KernelIdeal.HostFold

end
-- ==== Proof.KernelRun.lean ====
/-
  The kernel program's run with its two results named.  The program is host operations, the edge kernel's region,
  more host operations, the node kernel's region, and two final slices; the contents of every buffer at each boundary
  are a fold from the launch memory (`W15` at the end).  Every weakly fair execution terminates with each result
  buffer at the fold's final contents and the arguments as launched.
-/
import proofs.«111159_j59751585022659_2_alg».proof.Proof.Gen.KernelIdeal.Frame

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the final
    contents of the fold through its segments and the argument arrays unchanged. -/
theorem run_results : θ_run defs (onTc (τ := τ) (main (F := F))) ⟨m, fun _ => 0, ρ⟩ (fun r => ∀ c : Dev nD,
      r.2.mem ((c.tc : Thread nD τ).loc main_v32) = W15 m ρ c (Proc.devRef .tc main_v32)
      ∧ r.2.mem ((c.tc : Thread nD τ).loc main_v33) = W15 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v32 (by decide)),
       h c _ (mem_uc main_v33 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.Values

end
-- ==== Proof.KernelValue.lean ====
/-
  The kernel program's two results as the specification's functions of its arguments.  The final slices keep the leading
  50000 columns of the node region's padded results; an entry (b, n) with n < 50000 of a padded array is the original
  entry, and the padded threshold and decay rows at (0, n) are the vectors at n, so the padding is never read back.  The
  node region's third input is the padded per-node sum of the edge region's result, which is the specification's edge
  term of the gathered arrays and the weights.
-/
import proofs.«111159_j59751585022659_2_alg».proof.Proof.EdgeRegion
import proofs.«111159_j59751585022659_2_alg».proof.Proof.NodeRegion
import proofs.«111159_j59751585022659_2_alg».proof.Proof.HostFold
import proofs.«111159_j59751585022659_2_alg».proof.Proof.KernelRun
import Idealize.ShloMosaic.Lib.KernelVsHost

set_option maxRecDepth 16384

noncomputable section

namespace Cert.KernelIdeal.Values

open Idealize.ShloMosaic Idealize.ShloMosaic.TcCoe Idealize.SL.Sem Idealize.ShloMosaic.ValueIdx
open Cert.KernelIdeal Cert.KernelIdeal.Gen Cert.KernelIdeal.HostFold

variable {F : FTy → Type} [FloatOps F]

/-! ## Padding and cutting back -/

/-- Entry (b, n) of a 16 × 50000 array as an entry of the padded 16 × 50048 array. -/
abbrev up (i : S16x50000.Idx) : S16x50048.Idx :=
  ix2 (i 0 : Fin 16) (⟨(i 1).val, by have := (i 1).isLt; have e : (i 1).val < 50000 := this; omega⟩ : Fin 50048)

/-- The padded array at an entry of the original is the original there. -/
theorem padCols_apply (x : (⟨S16x50000, .f32⟩ : BufTy).Contents (Elt F)) (i : S16x50000.Idx) : padCols x (up i) = x i := by
  unfold padCols
  exact pad_apply_of_inside _ _ _ x _ _ _ (up i) i (fun a => by
    match a with
    | ⟨0, _⟩ => show (i 0).val = 0 + (i 0).val * (0 + 1); omega
    | ⟨1, _⟩ => show (i 1).val = 0 + (i 1).val * (0 + 1); omega)

/-- The padded row at a position of the original vector is the vector there. -/
theorem padRow_apply (x : (⟨S50000, .f32⟩ : BufTy).Contents (Elt F)) (i : S16x50000.Idx) :
    padRow x (ix2 (0 : Fin 1) ((up i) 1)) = x (ix1 (i 1)) := by
  unfold padRow
  have hlt : (i 1).val < 50048 := by have := (i 1).isLt; have e : (i 1).val < 50000 := this; omega
  rw [shapeCast_apply _ shapeCasts_S50048_S1x50048 (ix2 (0 : Fin 1) ((up i) 1)) (ix1 (⟨(i 1).val, hlt⟩ : Fin 50048)) (by
    rw [Shape.rowMajor_val_one, Shape.rowMajor_val_two]; show (i 1).val = 0 * 50048 + (i 1).val; omega)]
  exact pad_apply_of_inside _ _ _ x _ _ _ _ (ix1 (i 1)) (fun a => by
    match a with
    | ⟨0, _⟩ => show (i 1).val = 0 + (i 1).val * (0 + 1); omega)

/-- The leading 50000 columns of a padded array, at (b, n), are the padded array at (b, n). -/
theorem cut_apply {α : Type} (x : S16x50048.Idx → α) (i : S16x50000.Idx) :
    extractStridedSlice S16x50000 ![0, 0] x slices_S16x50048_S16x50000_0_0 i = x (up i) :=
  extractStridedSlice_apply _ x _ i (up i) (fun a => by
    match a with
    | ⟨0, _⟩ => show (i 0).val = 0 + (i 0).val; omega
    | ⟨1, _⟩ => show (i 1).val = 0 + (i 1).val; omega)

/-- The weights laid out as one row, at (0, e), are the weight of edge e. -/
theorem row_cast_apply {α : Type} (x : S1600000.Idx → α) (e : Fin 1600000) :
    shapeCast S1x1600000 x shapeCasts_S1600000_S1x1600000 (ix2 (0 : Fin 1) e) = x (ix1 e) :=
  shapeCast_apply x _ (ix2 (0 : Fin 1) e) (ix1 e) (by
    rw [Shape.rowMajor_val_one, Shape.rowMajor_val_two]; show e.val = 0 * 1600000 + e.val; omega)

variable (m : (ℓ : Loc nD τ sig) → Buf (Elt F) ℓ) (ρ : Dev nD → PrngReg)

/-! ## The edge region's result -/

/-- The edge contributions the kernel computes, as the specification's function of the arguments: the edge term of the
    two gathered arrays and the weights (the weight row at (0, e) is the weight of edge e). -/
theorem W2_v15 (c : Dev nD) : W2 m ρ c (Proc.devRef .tc main_v15)
    = Cert.Spec.contrib (gatherCols (m ((c : Thread nD τ).loc main_arg2)) (m ((c : Thread nD τ).loc main_arg6)))
        (gatherCols (m ((c : Thread nD τ).loc main_arg1)) (m ((c : Thread nD τ).loc main_arg7)))
        (m ((c : Thread nD τ).loc main_arg3)) := by
  have h : W2 m ρ c (Proc.devRef .tc main_v15) = _ := (W2_arr m ρ c 3).trans (Cert.KernelIdeal.EdgeRegion.final (V1 m ρ) c)
  rw [V1_v6, V1_v13, V1_v14] at h
  refine h.trans ?_
  funext i
  exact congrArg (Cert.Spec.edge1 _ _) (row_cast_apply (m ((c : Thread nD τ).loc main_arg3)) (i 1))

/-- The per-node sums of edge contributions the kernel program forms between its two regions. -/
def sums (c : Dev nD) : (⟨S16x50000, .f32⟩ : BufTy).Contents (Elt F) :=
  scatterCols (m ((c : Thread nD τ).loc main_arg7))
    (Cert.Spec.contrib (gatherCols (m ((c : Thread nD τ).loc main_arg2)) (m ((c : Thread nD τ).loc main_arg6)))
      (gatherCols (m ((c : Thread nD τ).loc main_arg1)) (m ((c : Thread nD τ).loc main_arg7)))
      (m ((c : Thread nD τ).loc main_arg3)))

/-! ## The two results -/

/-- The first result: the new outputs of the state array, the chemical input, the per-node sums and the thresholds. -/
theorem result0 (c : Dev nD) : W15 m ρ c (Proc.devRef .tc main_v32)
    = Cert.Spec.newO (m ((c : Thread nD τ).loc main_arg1)) (m ((c : Thread nD τ).loc main_arg0)) (sums m c)
        (m ((c : Thread nD τ).loc main_arg4)) := by
  have h : W14 m ρ c (Proc.devRef .tc main_v31_0) = _ := (W14_arr m ρ c 5).trans (Cert.KernelIdeal.NodeRegion.final5 (V13 m ρ) c)
  rw [V13_v24, V13_v25, V13_v26, V13_v28, W2_v15] at h
  rw [W15_v32, h]
  funext i
  rw [cut_apply]
  unfold Cert.KernelIdeal.NodeRegion.nodeO Cert.Spec.newO
  rw [padCols_apply, padCols_apply, padCols_apply, padRow_apply]
  rfl

/-- The second result: the new states, with the decays besides. -/
theorem result1 (c : Dev nD) : W15 m ρ c (Proc.devRef .tc main_v33)
    = Cert.Spec.newE (m ((c : Thread nD τ).loc main_arg1)) (m ((c : Thread nD τ).loc main_arg0)) (sums m c)
        (m ((c : Thread nD τ).loc main_arg4)) (m ((c : Thread nD τ).loc main_arg5)) := by
  have h : W14 m ρ c (Proc.devRef .tc main_v31_1) = _ := (W14_arr m ρ c 6).trans (Cert.KernelIdeal.NodeRegion.final6 (V13 m ρ) c)
  rw [V13_v24, V13_v25, V13_v26, V13_v28, V13_v30, W2_v15] at h
  rw [W15_v33, h]
  funext i
  rw [cut_apply]
  unfold Cert.KernelIdeal.NodeRegion.nodeE Cert.Spec.newE
  rw [padCols_apply, padCols_apply, padCols_apply, padRow_apply, padRow_apply]
  rfl

end Cert.KernelIdeal.Values

end
-- ==== Proof.RefValue.lean ====
/-
  The reference program's two results, stage by stage, are the new outputs and the new states of the specification,
  applied to the state array, the chemical input, the reference's own per-node sums of edge contributions, and the
  threshold and decay vectors; and its edge contributions are the specification's edge term of its two gathered arrays
  and the weights.  The reference spells the clamp as a maximum then a minimum, the threshold as a vector broadcast in
  two steps along the rows, and the negation of a comparison as the host's `not`.
-/
import proofs.«111159_j59751585022659_2_alg».proof.Proof.Gen.ReferenceIdeal.Read
import proofs.«111159_j59751585022659_2_alg».proof.Proof.Spec
import Idealize.ShloMosaic.Lib.ValueIdx

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable {F : FTy → Type} [FloatOps F]

/-! ## A vector laid along the rows: which entry a two-step broadcast reads -/

theorem idx_w (i : S16x1600000.Idx) : idx_main_v16 (idx_main_v17 i) = ix1 (i 1) :=
  funext fun a => Fin.ext (by match a with | ⟨0, _⟩ => rfl)
theorem idx_thr (i : S16x50000.Idx) : idx_main_v32 (idx_main_v33 i) = ix1 (i 1) :=
  funext fun a => Fin.ext (by match a with | ⟨0, _⟩ => rfl)
theorem idx_thr' (i : S16x50000.Idx) : idx_main_v41 (idx_main_v42 i) = ix1 (i 1) :=
  funext fun a => Fin.ext (by match a with | ⟨0, _⟩ => rfl)
theorem idx_dec (i : S16x50000.Idx) : idx_main_v45 (idx_main_v46 i) = ix1 (i 1) :=
  funext fun a => Fin.ext (by match a with | ⟨0, _⟩ => rfl)

variable (x0 x1 x2 : (⟨S16x50000, .f32⟩ : BufTy).Contents (Elt F)) (x3 : (⟨S1600000, .f32⟩ : BufTy).Contents (Elt F))
  (x4 x5 : (⟨S50000, .f32⟩ : BufTy).Contents (Elt F)) (x6 x7 : (⟨S1600000, .i32⟩ : BufTy).Contents (Elt F))

/-- The reference's edge contributions are the edge term of its two gathered arrays and the weights. -/
theorem contrib_eq : val_main_v20 (F := F) x1 x2 x3 x6 x7
    = Cert.Spec.contrib (val_main_v6 (F := F) x2 x6) (val_main_v13 (F := F) x1 x7) x3 := by
  funext i
  simp only [val_main_v20_apply, val_main_v18_apply, val_main_v17_apply, val_main_v16_apply, idx_w, val_main_v19_apply,
    val_main_v15_apply, val_main_v14_apply, val_main_call0_v0_apply, val_main_call0_v1_apply, val_main_cst_apply,
    val_main_cst_3_apply]
  rfl

/-- The reference's clamped sum at an entry. -/
theorem clip_apply (i : S16x50000.Idx) : val_main_v31 (F := F) x0 x1 x2 x3 x6 x7 i
    = Cert.Spec.clip1 (x1 i) (x0 i) (val_main_v28 (F := F) x1 x2 x3 x6 x7 i) := by
  simp only [val_main_v31_apply, val_main_call1_v4_apply, val_main_call1_v3_apply, val_main_cst_8_apply,
    val_main_call1_v2_apply, val_main_call1_v1_apply, val_main_call1_v0_apply, val_main_cst_7_apply, val_main_v30_apply,
    val_main_v29_apply]
  rfl

/-- The reference's first result is the new output of the state, the chemical input, its summed edge contributions and
    the thresholds. -/
theorem out_eq : val_main_v44 (F := F) x0 x1 x2 x3 x4 x6 x7
    = Cert.Spec.newO x1 x0 (val_main_v28 (F := F) x1 x2 x3 x6 x7) x4 := by
  funext i
  simp only [val_main_v44_apply, val_main_v43_apply, clip_apply, val_main_v42_apply, val_main_v41_apply, idx_thr',
    val_main_call2_v0_apply, val_main_call2_cst_apply]
  rfl

/-- The reference's second result is the new state.  At the extended reals the host's absolute value is the kernel's. -/
theorem state_eq (x0 x1 x2 : (⟨S16x50000, .f32⟩ : BufTy).Contents (Elt Ideal)) (x3 : (⟨S1600000, .f32⟩ : BufTy).Contents (Elt Ideal))
    (x4 x5 : (⟨S50000, .f32⟩ : BufTy).Contents (Elt Ideal)) (x6 x7 : (⟨S1600000, .i32⟩ : BufTy).Contents (Elt Ideal)) :
    val_main_v49 (F := Ideal) x0 x1 x2 x3 x4 x5 x6 x7
    = Cert.Spec.newE (F := Ideal) x1 x0 (val_main_v28 (F := Ideal) x1 x2 x3 x6 x7) x4 x5 := by
  funext i
  simp only [val_main_v49_apply, val_main_v48_apply, val_main_v47_apply, val_main_v46_apply, val_main_v45_apply, idx_dec,
    val_main_v44_apply, val_main_v43_apply, val_main_v42_apply, val_main_v41_apply, idx_thr',
    val_main_call2_v0_apply, val_main_call2_cst_apply,
    val_main_v40_apply, val_main_v39_apply, val_main_v38_apply, val_main_cst_9_apply, val_main_v37_apply, val_main_v36_apply,
    val_main_v35_apply, val_main_v34_apply, val_main_v33_apply, val_main_v32_apply, idx_thr, clip_apply]
  rfl

end Cert.ReferenceIdeal.RefValue

end
-- ==== Proof.Bridge.lean ====
/-
  The two programs form the same per-node sums.  Both bring the index arrays into range the same way, gather the
  same columns, and add the edge contributions into a zero array with the same scatter; the kernel program's edge
  contributions (its first region's result) and the reference's are the same edge term of the same gathered arrays.
-/
import proofs.«111159_j59751585022659_2_alg».proof.Proof.HostFold
import proofs.«111159_j59751585022659_2_alg».proof.Proof.RefValue

set_option maxRecDepth 16384

noncomputable section

namespace Cert.Bridge

open Idealize.ShloMosaic Idealize.ShloMosaic.TcCoe Idealize.SL.Sem

variable {F : FTy → Type} [FloatOps F]

/-- The kernel program's per-node sums of the specification's edge contributions are the reference's scatter stage. -/
theorem sums_eq (x1 x2 : (⟨Cert.ReferenceIdeal.S16x50000, .f32⟩ : BufTy).Contents (Elt F))
    (x3 : (⟨Cert.ReferenceIdeal.S1600000, .f32⟩ : BufTy).Contents (Elt F))
    (x6 x7 : (⟨Cert.ReferenceIdeal.S1600000, .i32⟩ : BufTy).Contents (Elt F)) :
    Cert.KernelIdeal.HostFold.scatterCols (F := F) x7
        (Cert.Spec.contrib (Cert.KernelIdeal.HostFold.gatherCols (F := F) x2 x6) (Cert.KernelIdeal.HostFold.gatherCols (F := F) x1 x7) x3)
      = Cert.ReferenceIdeal.Read.val_main_v28 (F := F) x1 x2 x3 x6 x7 := by
  unfold Cert.ReferenceIdeal.Read.val_main_v28
  rw [Cert.ReferenceIdeal.RefValue.contrib_eq]
  rfl

end Cert.Bridge

end
-- ==== Proof.lean ====
/-
  The kernel program against its reference, at the extended reals.

  Both programs compute, for every row b and node n,
      s = min 10 (max (−10) ((E + c) + gj)),   new_o = max (s − thr n) 0,
      new_e = if s > thr n then new_o else if ¬(s > thr n) ∧ |s − E| ≤ ε then E − dec n else s,
  where gj sums, over the edges e whose target is n, the contribution oj · w e · (if oj ≥ en then 1 else −1) of
  oj = o_pre[b, src e] and en = E[b, dst e].  The reference does all of it with host operations.  The kernel program
  gathers with the same host operations, computes the contributions in a first kernel tiled over 20 column blocks,
  sums them per node with the same host scatter, pads every node array with 48 zero columns, runs a second kernel over
  the padded arrays as one block, and cuts the padding off.  The tiles cover the edge axis, the padding is never read
  back (entry (b, n) of a padded array with n < 50000 is the original entry), and each kernel applies the reference's
  operations in the reference's order, so the results are equal entry by entry for any float values; the precondition
  is not used.

  The frames of the two kernel programs are the generated ones; the reference's frame is its generated run with the
  results dropped; the idealization rewrote nothing.
-/
import proofs.«111159_j59751585022659_2_alg».proof.Defs
import proofs.«111159_j59751585022659_2_alg».proof.Proof.Gen.Kernel
import proofs.«111159_j59751585022659_2_alg».proof.Proof.Gen.Kernel.Skeleton
import proofs.«111159_j59751585022659_2_alg».proof.Proof.Gen.Kernel.Launch
import proofs.«111159_j59751585022659_2_alg».proof.Proof.Gen.Kernel.Points
import proofs.«111159_j59751585022659_2_alg».proof.Proof.Gen.Kernel.Frame
import proofs.«111159_j59751585022659_2_alg».proof.Proof.Gen.KernelIdeal
import proofs.«111159_j59751585022659_2_alg».proof.Proof.Gen.KernelIdeal.Skeleton
import proofs.«111159_j59751585022659_2_alg».proof.Proof.Gen.KernelIdeal.Launch
import proofs.«111159_j59751585022659_2_alg».proof.Proof.Gen.KernelIdeal.Points
import proofs.«111159_j59751585022659_2_alg».proof.Proof.Gen.KernelIdeal.Frame
import proofs.«111159_j59751585022659_2_alg».proof.Proof.Gen.ReferenceIdeal
import proofs.«111159_j59751585022659_2_alg».proof.Proof.Gen.Pre_finite_inputs
import proofs.«111159_j59751585022659_2_alg».proof.Proof.Gen.ReferenceIdeal.Run
import proofs.«111159_j59751585022659_2_alg».proof.Proof.Gen.ReferenceIdeal.Read
import proofs.«111159_j59751585022659_2_alg».proof.Proof.KernelValue
import proofs.«111159_j59751585022659_2_alg».proof.Proof.Bridge
import Idealize.ShloMosaic.Adequacy
import Idealize.ShloMosaic.Init

set_option maxRecDepth 16384

noncomputable section

namespace Cert.Proof

open Idealize.ShloMosaic Idealize.SL.Sem

section Claims

variable [Cert.Kernel.Facts] [Cert.KernelIdeal.Facts] [Cert.ReferenceIdeal.Facts] [Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the new outputs and the new states of the arguments they agree on. -/
theorem algebraic : Cert.algebraic_KernelIdeal_ReferenceIdeal := by
  intro m ρ m' ρ' _ hagree
  refine ⟨fun c => Cert.Spec.newO (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (Cert.KernelIdeal.Values.sums m c) (m ((c.tc : Thread Cert.KernelIdeal.nD Cert.KernelIdeal.τ).loc Cert.KernelIdeal.main_arg4)),
    fun c => Cert.Spec.newE (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (Cert.KernelIdeal.Values.sums m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Values.result0 m ρ c), (h c).2.1.trans (Cert.KernelIdeal.Values.result1 m ρ c), (h c).2.2⟩)
      (Cert.KernelIdeal.Values.run_results (F := Ideal) m ρ)
  · refine (θ_run Cert.ReferenceIdeal.defs _ _).mono (fun r h c => ⟨?_, ?_, (h c).2.2⟩)
      (Cert.ReferenceIdeal.Value.run (F := Ideal) m' ρ')
    · have e := (h c).1.trans (Cert.ReferenceIdeal.Read.val_main_v44_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
      rw [Cert.ReferenceIdeal.RefValue.out_eq, ← Cert.Bridge.sums_eq] at e
      obtain ⟨a0, a1, a2, a3, a4, a5, a6, a7⟩ := hagree c
      rw [a0, a1, a2, a3, a4, a6, a7] at e
      exact e
    · have e := (h c).2.1.trans (Cert.ReferenceIdeal.Read.val_main_v49_eq (F := Ideal) m' c)
      rw [Cert.ReferenceIdeal.RefValue.state_eq, ← Cert.Bridge.sums_eq] at e
      obtain ⟨a0, a1, a2, a3, a4, a5, a6, a7⟩ := hagree c
      rw [a0, a1, a2, a3, a4, a5, a6, a7] at e
      exact e

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
